-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S3200000 32) (main_arg2 : IVec S3200000 32) (main_arg3 : FVec F S1433x16 .f32) (main_arg4 : FVec F S16 .f32) (main_arg5 : FVec F S16x7 .f32) (main_arg6 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg3
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg5
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg6 main_v13 main_v16
-- ==== Kernel.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1433 : Shape := ⟨2, ![2000, 1433]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 101
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S100000, .i32⟩
  | .hbm, ⟨8, _⟩ => ⟨S3300000, .i32⟩
  | .hbm, ⟨9, _⟩ => ⟨S3300000, .i32⟩
  | .hbm, ⟨10, _⟩ => ⟨S_, .f32⟩
  | .hbm, ⟨11, _⟩ => ⟨S3300000, .f32⟩
  | .hbm, ⟨12, _⟩ => ⟨S_, .f32⟩
  | .hbm, ⟨13, _⟩ => ⟨S100000, .f32⟩
  | .hbm, ⟨14, _⟩ => ⟨S3300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S3300000x1, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .f32⟩
  | .hbm, ⟨64, _⟩ => ⟨S100000x16, .f32⟩
  | .hbm, ⟨65, _⟩ => ⟨S100000x16, .f32⟩
  | .hbm, ⟨66, _⟩ => ⟨S100000x7, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x7, .f32⟩
  | .hbm, ⟨76, _⟩ => ⟨S3300000x1, .f32⟩
  | .hbm, ⟨77, _⟩ => ⟨S3300000x7, .f32⟩
  | .hbm, ⟨78, _⟩ => ⟨S3300000x7, .f32⟩
  | .hbm, ⟨79, _⟩ => ⟨S_, .f32⟩
  | .hbm, ⟨80, _⟩ => ⟨S100000x7, .f32⟩
  | .hbm, ⟨81, _⟩ => ⟨S3300000x1, .i32⟩
  | .hbm, ⟨82, _⟩ => ⟨S100000x7, .f32⟩
  | .hbm, ⟨83, _⟩ => ⟨S1x7, .f32⟩
  | .hbm, ⟨84, _⟩ => ⟨S100000x7, .f32⟩
  | .hbm, ⟨85, _⟩ => ⟨S100000x7, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x7, .f32⟩
  | .hbm, ⟨93, _⟩ => ⟨S100000x7, .f32⟩
  | .hbm, ⟨94, _⟩ => ⟨S100000x7, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x7, .f32⟩
  | .hbm, ⟨100, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v61 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x16_S2000x16_1_0_0_1_n_n_wf : DotDims.WF S2000x1433 S1433x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S3200000 : Shape := ⟨1, ![3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S3200000, .i32⟩
  | .hbm, ⟨2, _⟩ => ⟨S3200000, .i32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S100000, .i32⟩
  | .hbm, ⟨8, _⟩ => ⟨S3300000, .i32⟩
  | .hbm, ⟨9, _⟩ => ⟨S3300000, .i32⟩
  | .hbm, ⟨10, _⟩ => ⟨S_, .f32⟩
  | .hbm, ⟨11, _⟩ => ⟨S3300000, .f32⟩
  | .hbm, ⟨12, _⟩ => ⟨S_, .f32⟩
  | .hbm, ⟨13, _⟩ => ⟨S100000, .f32⟩
  | .hbm, ⟨14, _⟩ => ⟨S3300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S3300000x1, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .f32⟩
  | .hbm, ⟨64, _⟩ => ⟨S100000x16, .f32⟩
  | .hbm, ⟨65, _⟩ => ⟨S100000x16, .f32⟩
  | .hbm, ⟨66, _⟩ => ⟨S100000x7, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x7, .f32⟩
  | .hbm, ⟨76, _⟩ => ⟨S3300000x1, .f32⟩
  | .hbm, ⟨77, _⟩ => ⟨S3300000x7, .f32⟩
  | .hbm, ⟨78, _⟩ => ⟨S3300000x7, .f32⟩
  | .hbm, ⟨79, _⟩ => ⟨S_, .f32⟩
  | .hbm, ⟨80, _⟩ => ⟨S100000x7, .f32⟩
  | .hbm, ⟨81, _⟩ => ⟨S3300000x1, .i32⟩
  | .hbm, ⟨82, _⟩ => ⟨S100000x7, .f32⟩
  | .hbm, ⟨83, _⟩ => ⟨S1x7, .f32⟩
  | .hbm, ⟨84, _⟩ => ⟨S100000x7, .f32⟩
  | .hbm, ⟨85, _⟩ => ⟨S100000x7, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x7, .f32⟩
  | .hbm, ⟨93, _⟩ => ⟨S100000x7, .f32⟩
  | .hbm, ⟨94, _⟩ => ⟨S100000x7, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x7, .f32⟩
  | .hbm, ⟨100, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v61 : Ref sig .tc := ⟨.hbm, 100, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1433_S1433x16_S100000x16_1_0_0_1_n_n_wf : DotDims.WF S100000x1433 S1433x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result read back.

  The program is nine segments in a row: host operations, the first launch, host operations, the second launch, host
  operations. The contents of the TensorCore's buffers at the segment boundaries are a fold from the launch memory
  (`W0` … `W9`: a stretch of host operations applies them in order; a launch replaces its output array by what its grid
  points wrote and leaves every other buffer alone). Every weakly fair execution terminates without a fault in a state whose
  unscoped buffers hold the last boundary's contents `W9`. Read there: the seven argument arrays are as launched, and the
  result buffer holds `W9` at the result's reference — the statement below. What `W9` holds there, as a function of
  the arguments, is the next module's business.
-/
import proofs.«129228_j86328842650410_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the seven arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«129228_j86328842650410_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.RowBlocks.lean ====
/-
  What each of the kernel's two launches leaves in its output array: the product of its two input arrays.

  A launch walks a grid of points; at point t it is handed rows [B·t, B·t + B) of its left array (B = 2000 for the first
  launch, 10000 for the second), the whole right array, and writes rows [B·t, B·t + B) of the output. The body's one
  store is the matrix unit's product of the two loaded blocks into a zero accumulator; on the extended reals that is
  the plain product of the blocks (the casts of the operands to a narrower float format are the identity there).

  Rows of a product are products of rows: the block of the output written at point t is therefore rows
  [B·t, B·t + B) of the product of the WHOLE arrays. The blocks tile the output (row r belongs to point r / B), so
  after the last point the output array is that product. Stated for the arrays "as the launch finds them"
  (a parameter `V`), since the second launch's left array is itself computed by the program.
-/
import proofs.«129228_j86328842650410_1_alg».proof.Proof.Gen.KernelIdeal.Frame
import proofs.«129228_j86328842650410_1_alg».proof.Proof.LibRowsCols
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.RowBlocks

open Cert.KernelIdeal Cert.KernelIdeal.Gen Cert.Dense

-- the contents of the TensorCore's buffers when a launch is entered
variable (V : (c : Dev nD) → (b : Ref sig .tc) → Buf (Elt Ideal) ((c : Thread nD τ).loc b))

theorem offsets_zero : (![0, 0] : Fin 2 → Nat) = fun _ => 0 := funext fun a => by fin_cases a <;> rfl

/-! ## The first launch: [100000, 1433] times [1433, 16], 2000 rows per point -/

/-- The block contraction is "rows times columns": left index (row, k), right index (k, column). -/
theorem rowsCols0 : RowsCols (R := 2000) (K := 1433) (N := 16) dot_S2000x1433_S1433x16_S2000x16_1_0_0_1_n_n :=
  ⟨rfl, rfl, fun _ _ => rfl, fun _ _ => rfl, fun _ _ => rfl, fun _ _ => rfl⟩

/-- What the body stores is the plain product of the two blocks it loaded. -/
theorem stored0 (x0 : Vec Ideal S2000x1433 .f32) (x1 : Vec Ideal S1433x16 .f32) :
    k0_pay1 (F := Ideal) x0 x1 = rowsTimes (M := 2000) (K := 1433) (N := 16) x0 x1 :=
  funext fun j => matmul_zero_apply rowsCols0 none (truncf .bf16 x0 bitsLt_bf16_f32) (truncf .bf16 x1 bitsLt_bf16_f32) j

/-- Which block each window holds at point t: rows-block t of the left array and of the output, the one block of
    the right array. Decided over the 50 points. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t, row p, is row 2000·t + p of the left array. -/
theorem left0 (c : Dev nD) (t : Fin cfg0.N) (y : S2000x1433.Idx) (i : S100000x1433.Idx)
    (h0 : (i 0).val = 2000 * t.val + (y 0).val) (h1 : (i 1).val = (y 1).val) :
    (iblk0 V c 0 t : Vec Ideal S2000x1433 .f32) y = (V c main_arg0 : S100000x1433.Idx → EReal) i := by
  obtain ⟨e0, e1, -⟩ := blocks0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 1433 + 1 * (y 1).val = (i 1).val; rw [e1, h1]; omega

/-- The right block at every point is the whole right array. -/
theorem right0 (c : Dev nD) (t : Fin cfg0.N) (y : S1433x16.Idx) (i : S1433x16.Idx)
    (h0 : (i 0).val = (y 0).val) (h1 : (i 1).val = (y 1).val) :
    (iblk0 V c 1 t : Vec Ideal S1433x16 .f32) y = (V c main_arg3 : S1433x16.Idx → EReal) i := by
  obtain ⟨-, -, e2, e3, -⟩ := blocks0 t
  unfold iblk0
  rw [View.read_apply]
  show V c main_arg3 _ = V c main_arg3 _
  congr 1
  funext a
  apply Fin.ext
  match a with
  | ⟨0, _⟩ => show win0_1.index t 0 * 1433 + 1 * (y 0).val = (i 0).val; rw [e2, h0]; omega
  | ⟨1, _⟩ => show win0_1.index t 1 * 16 + 1 * (y 1).val = (i 1).val; rw [e3, h1]; omega

/-- What point t writes back is rows [2000·t, 2000·t + 2000) of the product of the whole arrays. -/
theorem written0 (c : Dev nD) (t : Fin cfg0.N) :
    (dat0 V c).flushed 2 t = ((cfg0.win 2).blk t).view.read (Elt Ideal)
      (rowsTimes (M := 100000) (K := 1433) (N := 16) (V c main_arg0) (V c main_arg3)) := by
  show (cfg0.win 2).cut (grid0.coords t) ((dat0 V c).after 2 t) = _
  rw [after0_2]
  unfold out0_2
  rw [View.canon_unit_zero offsets_zero]
  simp only [View.ld_unit_zero (S := S2000x1433) offsets_zero, View.ld_unit_zero (S := S1433x16) offsets_zero]
  rw [stored0]
  obtain ⟨-, -, -, -, e4, e5⟩ := blocks0 t
  funext j
  rw [View.read_apply]
  show rowsTimes (M := 2000) (K := 1433) (N := 16) (iblk0 V c 0 t) (iblk0 V c 1 t) j
    = rowsTimes (M := 100000) (K := 1433) (N := 16) (V c main_arg0) (V c main_arg3) (((cfg0.win 2).blk t).view.emb j)
  have r0 : ((((cfg0.win 2).blk t).view.emb j) 0).val = 2000 * t.val + (j 0).val := by
    show win0_2.index t 0 * 2000 + 1 * (j 0).val = _; rw [e4]; omega
  have r1 : ((((cfg0.win 2).blk t).view.emb j) 1).val = (j 1).val := by
    show win0_2.index t 1 * 16 + 1 * (j 1).val = _; rw [e5]; omega
  exact rowsTimes_of_rows (V c main_arg0) (V c main_arg3) (iblk0 V c 0 t) (iblk0 V c 1 t) j (((cfg0.win 2).blk t).view.emb j)
    (fun k => left0 V c t (ix2 (j 0) k) (ix2 ((((cfg0.win 2).blk t).view.emb j) 0) k) r0 rfl)
    (fun k => right0 V c t (ix2 k (j 1)) (ix2 k ((((cfg0.win 2).blk t).view.emb j) 1)) rfl r1)

/-- An index of the output is in point t's block iff each coordinate is in the block's range on its axis. -/
theorem inBlock0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v26).slice (win0_2.rect t)).set ↔ _
  rw [View.set_slice_whole, Rect.mem_set_unit]
  exact Iff.rfl

/-- Every row of the output is written: row r by point r / 2000. -/
theorem tiled0 (i : S100000x16.Idx) :
    ∃ t : Fin cfg0.N, (cfg0.win 2).flush t = true ∧ i ∈ ((cfg0.win 2).blk t).view.set := by
  have h0 : (i 0).val < 100000 := (i 0).isLt
  have h1 : (i 1).val < 16 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e4, e5⟩ := blocks0 t
  refine ⟨t, flush0_2 t, ?_⟩
  rw [inBlock0]
  intro a
  match a with
  | ⟨0, _⟩ =>
    show win0_2.index t 0 * 2000 ≤ (i 0).val ∧ (i 0).val < win0_2.index t 0 * 2000 + 2000
    rw [e4, ht]; omega
  | ⟨1, _⟩ =>
    show win0_2.index t 1 * 16 ≤ (i 1).val ∧ (i 1).val < win0_2.index t 1 * 16 + 16
    rw [e5]; omega

/-- After the first launch its output array is the product of the two arrays it was entered with. -/
theorem product0 (c : Dev nD) :
    (dat0 V c).arrAt 2 cfg0.N = rowsTimes (M := 100000) (K := 1433) (N := 16) (V c main_arg0) (V c main_arg3) :=
  (dat0 V c).arrAt_eq_of_cover 2 _ (fun t _ => written0 V c t) tiled0

/-! ## The second launch: [100000, 16] times [16, 7], 10000 rows per point -/

theorem rowsCols1 : RowsCols (R := 10000) (K := 16) (N := 7) dot_S10000x16_S16x7_S10000x7_1_0_0_1_n_n :=
  ⟨rfl, rfl, fun _ _ => rfl, fun _ _ => rfl, fun _ _ => rfl, fun _ _ => rfl⟩

/-- What the body stores is the plain product of the two blocks it loaded (its reshape of the left block to the
    shape it already has is the identity). -/
theorem stored1 (x0 : Vec Ideal S10000x16 .f32) (x1 : Vec Ideal S16x7 .f32) :
    k1_pay1 (F := Ideal) x0 x1 = rowsTimes (M := 10000) (K := 16) (N := 7) x0 x1 := by
  funext j
  refine (matmul_zero_apply rowsCols1 none
    (truncf .bf16 (shapeCast S10000x16 x0 shapeCasts_S10000x16_S10000x16) bitsLt_bf16_f32) (truncf .bf16 x1 bitsLt_bf16_f32) j).trans ?_
  rw [shapeCast_self]
  rfl

theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left block at point t, row p, is row 10000·t + p of the left array (the rectified first layer). -/
theorem left1 (c : Dev nD) (t : Fin cfg1.N) (y : S10000x16.Idx) (i : S100000x16.Idx)
    (h0 : (i 0).val = 10000 * t.val + (y 0).val) (h1 : (i 1).val = (y 1).val) :
    (iblk1 V c 0 t : Vec Ideal S10000x16 .f32) y = (V c main_v43 : S100000x16.Idx → EReal) i := by
  obtain ⟨e0, e1, -⟩ := blocks1 t
  unfold iblk1
  rw [View.read_apply]
  show V c main_v43 _ = V c main_v43 _
  congr 1
  funext a
  apply Fin.ext
  match a with
  | ⟨0, _⟩ => show win1_0.index t 0 * 10000 + 1 * (y 0).val = (i 0).val; rw [e0, h0]; omega
  | ⟨1, _⟩ => show win1_0.index t 1 * 16 + 1 * (y 1).val = (i 1).val; rw [e1, h1]; omega

theorem right1 (c : Dev nD) (t : Fin cfg1.N) (y : S16x7.Idx) (i : S16x7.Idx)
    (h0 : (i 0).val = (y 0).val) (h1 : (i 1).val = (y 1).val) :
    (iblk1 V c 1 t : Vec Ideal S16x7 .f32) y = (V c main_arg5 : S16x7.Idx → EReal) i := by
  obtain ⟨-, -, e2, e3, -⟩ := blocks1 t
  unfold iblk1
  rw [View.read_apply]
  show V c main_arg5 _ = V c main_arg5 _
  congr 1
  funext a
  apply Fin.ext
  match a with
  | ⟨0, _⟩ => show win1_1.index t 0 * 16 + 1 * (y 0).val = (i 0).val; rw [e2, h0]; omega
  | ⟨1, _⟩ => show win1_1.index t 1 * 7 + 1 * (y 1).val = (i 1).val; rw [e3, h1]; omega

/-- What point t writes back is rows [10000·t, 10000·t + 10000) of the product of the whole arrays. -/
theorem written1 (c : Dev nD) (t : Fin cfg1.N) :
    (dat1 V c).flushed 2 t = ((cfg1.win 2).blk t).view.read (Elt Ideal)
      (rowsTimes (M := 100000) (K := 16) (N := 7) (V c main_v43) (V c main_arg5)) := by
  show (cfg1.win 2).cut (grid1.coords t) ((dat1 V c).after 2 t) = _
  rw [after1_2]
  unfold out1_2
  rw [View.canon_unit_zero offsets_zero]
  simp only [View.ld_unit_zero (S := S10000x16) offsets_zero, View.ld_unit_zero (S := S16x7) offsets_zero]
  rw [stored1]
  obtain ⟨-, -, -, -, e4, e5⟩ := blocks1 t
  funext j
  rw [View.read_apply]
  show rowsTimes (M := 10000) (K := 16) (N := 7) (iblk1 V c 0 t) (iblk1 V c 1 t) j
    = rowsTimes (M := 100000) (K := 16) (N := 7) (V c main_v43) (V c main_arg5) (((cfg1.win 2).blk t).view.emb j)
  have r0 : ((((cfg1.win 2).blk t).view.emb j) 0).val = 10000 * t.val + (j 0).val := by
    show win1_2.index t 0 * 10000 + 1 * (j 0).val = _; rw [e4]; omega
  have r1 : ((((cfg1.win 2).blk t).view.emb j) 1).val = (j 1).val := by
    show win1_2.index t 1 * 7 + 1 * (j 1).val = _; rw [e5]; omega
  exact rowsTimes_of_rows (V c main_v43) (V c main_arg5) (iblk1 V c 0 t) (iblk1 V c 1 t) j (((cfg1.win 2).blk t).view.emb j)
    (fun k => left1 V c t (ix2 (j 0) k) (ix2 ((((cfg1.win 2).blk t).view.emb j) 0) k) r0 rfl)
    (fun k => right1 V c t (ix2 k (j 1)) (ix2 k ((((cfg1.win 2).blk t).view.emb j) 1)) rfl r1)

theorem inBlock1 (t : Fin cfg1.N) (i : S100000x7.Idx) :
    i ∈ ((cfg1.win 2).blk t).view.set ↔ ∀ a : Fin 2, win1_2.index t a * S10000x7.size a ≤ (i a).val
      ∧ (i a).val < win1_2.index t a * S10000x7.size a + S10000x7.size a := by
  show i ∈ ((View.whole main_v44).slice (win1_2.rect t)).set ↔ _
  rw [View.set_slice_whole, Rect.mem_set_unit]
  exact Iff.rfl

/-- Every row of the output is written: row r by point r / 10000. -/
theorem tiled1 (i : S100000x7.Idx) :
    ∃ t : Fin cfg1.N, (cfg1.win 2).flush t = true ∧ i ∈ ((cfg1.win 2).blk t).view.set := by
  have h0 : (i 0).val < 100000 := (i 0).isLt
  have h1 : (i 1).val < 7 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e4, e5⟩ := blocks1 t
  refine ⟨t, flush1_2 t, ?_⟩
  rw [inBlock1]
  intro a
  match a with
  | ⟨0, _⟩ =>
    show win1_2.index t 0 * 10000 ≤ (i 0).val ∧ (i 0).val < win1_2.index t 0 * 10000 + 10000
    rw [e4, ht]; omega
  | ⟨1, _⟩ =>
    show win1_2.index t 1 * 7 ≤ (i 1).val ∧ (i 1).val < win1_2.index t 1 * 7 + 7
    rw [e5]; omega

/-- After the second launch its output array is the product of the two arrays it was entered with. -/
theorem product1 (c : Dev nD) :
    (dat1 V c).arrAt 2 cfg1.N = rowsTimes (M := 100000) (K := 16) (N := 7) (V c main_v43) (V c main_arg5) :=
  (dat1 V c).arrAt_eq_of_cover 2 _ (fun t _ => written1 V c t) tiled1

end Cert.KernelIdeal.RowBlocks

end
-- ==== Proof.Gcn.lean ====
/-
  The two-layer graph convolution both programs compute, as ONE function of the seven arguments, with the two
  dense products left as parameters.

  The graph has 100000 nodes and 3200000 directed edges (row e → the node that receives, col e → the node that
  sends); every node also gets one edge to itself, so an edge list has 3300000 entries. With d(v) the number of
  listed edges that v receives, the weight of edge e is  d(row e)^(-1/2) · d(col e)^(-1/2)  (zero where d is
  not positive). One layer sends every node's row of h along each edge, scaled by the edge's weight, adds what
  each node receives, and adds a bias row:

      layer h b (v, j) = b j + ∑ over edges e with row e = v of  h (col e, j) · weight e .

  The network is  logsoftmax ( layer ((relu (layer (x · W1) b1)) · W2) b2 )  over each node's 7 outputs.

  Only the two products "·" are computed differently by the two programs (one block of rows at a time, or all
  at once); everything else is literally the same sequence of operations. So the function is stated with the
  products as parameters `mm1`, `mm2`: both programs are shown to be this function at products that are then
  shown equal. Nothing here is evaluated: a float constant is kept as its 32-bit word, the same word on both sides.
-/
import proofs.«129228_j86328842650410_1_alg».proof.Proof.Gen.KernelIdeal

noncomputable section

namespace Cert.Gcn

open Idealize.ShloMosaic Cert.KernelIdeal Cert.KernelIdeal.Facts₀ Cert.KernelIdeal.Facts

variable {F : FTy → Type} [FloatOps F]

/-- An edge list (the receiving or the sending end of every edge) with the self-loop of every node appended:
    entry 3200000 + v is v. -/
def withLoops (e : IVec S3200000 32) : IVec S3300000 32 :=
  concatenate S3300000 0 [⟨S3200000, e⟩, ⟨S100000, iotaInDim S100000 32 0⟩] concatenates_S3200000_S100000_S3300000_d0

/-- A node number used as a position: a negative one counts from the end (100000 is added to it). -/
def fromEnd (e : IVec S3300000 32) : IVec S3300000 32 :=
  select (cmpi .slt e (broadcastInDim S3300000 ![] bcast_S_S3300000 (constantI S_ 32 0#32)))
    (addi e (broadcastInDim S3300000 ![] bcast_S_S3300000 (constantI S_ 32 100000#32))) e

/-- One value per edge written as a column, the shape in which positions and scale factors are consumed. -/
def asColumn {α : Type} (e : S3300000.Idx → α) : S3300000x1.Idx → α :=
  broadcastInDim S3300000x1 ![0] bcast_S3300000_S3300000x1_0 e

/-- d(v): the number of listed edges (self-loops included) that node v receives — a one added per edge. -/
def degree (r : IVec S3300000 32) : FVec F S100000 .f32 :=
  Host.scatterAdd scatter_S100000_S3300000x1_S3300000_n_0_0_1
    (broadcastInDim S100000 ![] bcast_S_S100000 (constant S_ .f32 0x00000000#32)) (asColumn r)
    (broadcastInDim S3300000 ![] bcast_S_S3300000 (constant S_ .f32 0x3F800000#32))

/-- d(v)^(-1/2) where d(v) > 0, and 0 elsewhere. -/
def invSqrtDegree (r : IVec S3300000 32) : FVec F S100000 .f32 :=
  select (cmpf .ogt (degree (F := F) r) (broadcastInDim S100000 ![] bcast_S_S100000 (constant S_ .f32 0x00000000#32)))
    (Host.rsqrt (degree (F := F) r))
    (broadcastInDim S100000 ![] bcast_S_S100000 (id (constant S_ .f32 0x00000000#32)))

/-- The weight of edge e: d(row e)^(-1/2) · d(col e)^(-1/2). -/
def edgeWeight (r c : IVec S3300000 32) : FVec F S3300000 .f32 :=
  mulf (Host.gather gather_S100000_S3300000x1_S3300000_n_0_n_n_0_1_1 (invSqrtDegree (F := F) r) (asColumn (fromEnd r)))
    (Host.gather gather_S100000_S3300000x1_S3300000_n_0_n_n_0_1_1 (invSqrtDegree (F := F) r) (asColumn (fromEnd c)))

/-- The first layer's aggregation over 16 features: each node receives, along every edge into it, the sender's row of
    `h` scaled by the edge's weight; the bias row is added to every node. -/
def layer16 (h : FVec F S100000x16 .f32) (r c : IVec S3300000 32) (wt : FVec F S3300000 .f32) (b : FVec F S16 .f32) :
    FVec F S100000x16 .f32 :=
  addf (Host.scatterAdd scatter_S100000x16_S3300000x1_S3300000x16_1_0_0_1
      (broadcastInDim S100000x16 ![] bcast_S_S100000x16 (constant S_ .f32 0x00000000#32)) (asColumn r)
      (mulf (Host.gather gather_S100000x16_S3300000x1_S3300000x16_1_0_n_n_0_1_116 h (asColumn (fromEnd c)))
        (broadcastInDim S3300000x16 ![0, 1] bcast_S3300000x1_S3300000x16_0_1 (asColumn wt))))
    (broadcastInDim S100000x16 ![0, 1] bcast_S1x16_S100000x16_0_1 (broadcastInDim S1x16 ![1] bcast_S16_S1x16_1 b))

/-- The rectifier max(·, 0), entry by entry. -/
def relu16 (h : FVec F S100000x16 .f32) : FVec F S100000x16 .f32 :=
  maximumf h (broadcastInDim S100000x16 ![] bcast_S_S100000x16 (constant S_ .f32 0x00000000#32))

/-- The second layer's aggregation, the same over 7 features. -/
def layer7 (h : FVec F S100000x7 .f32) (r c : IVec S3300000 32) (wt : FVec F S3300000 .f32) (b : FVec F S7 .f32) :
    FVec F S100000x7 .f32 :=
  addf (Host.scatterAdd scatter_S100000x7_S3300000x1_S3300000x7_1_0_0_1
      (broadcastInDim S100000x7 ![] bcast_S_S100000x7 (constant S_ .f32 0x00000000#32)) (asColumn r)
      (mulf (Host.gather gather_S100000x7_S3300000x1_S3300000x7_1_0_n_n_0_1_17 h (asColumn (fromEnd c)))
        (broadcastInDim S3300000x7 ![0, 1] bcast_S3300000x1_S3300000x7_0_1 (asColumn wt))))
    (broadcastInDim S100000x7 ![0, 1] bcast_S1x7_S100000x7_0_1 (broadcastInDim S1x7 ![1] bcast_S7_S1x7_1 b))

/-- A node's row with its maximum subtracted (the maximum taken from −∞, so over the row alone). -/
def centred (z : FVec F S100000x7 .f32) : FVec F S100000x7 .f32 :=
  subf z (broadcastInDim S100000x7 ![0, 1] bcast_S100000x1_S100000x7_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x7_S100000_d1 h_S_))))

/-- log-softmax along each node's 7 outputs: the centred row minus the logarithm of the sum of its exponentials. -/
def logSoftmax (z : FVec F S100000x7 .f32) : FVec F S100000x7 .f32 :=
  subf (centred z) (broadcastInDim S100000x7 ![0, 1] bcast_S100000x1_S100000x7_0_1 (Host.log
    (broadcastInDim S100000x1 ![0] bcast_S100000_S100000x1_0
      (Host.reduceAdd (Host.exp (centred z)) (constant S_ .f32 0x00000000#32) reducesTo_S100000x7_S100000_d1 h_S_))))

/-- The network on edge lists that already carry the self-loops. -/
def onEdges (mm1 : FVec F S100000x1433 .f32 → FVec F S1433x16 .f32 → FVec F S100000x16 .f32)
    (mm2 : FVec F S100000x16 .f32 → FVec F S16x7 .f32 → FVec F S100000x7 .f32)
    (x : FVec F S100000x1433 .f32) (W1 : FVec F S1433x16 .f32) (b1 : FVec F S16 .f32) (W2 : FVec F S16x7 .f32)
    (b2 : FVec F S7 .f32) (r c : IVec S3300000 32) : FVec F S100000x7 .f32 :=
  logSoftmax (layer7 (mm2 (relu16 (layer16 (mm1 x W1) r c (edgeWeight r c) b1)) W2) r c (edgeWeight r c) b2)

/-- The network, as a function of the seven arguments and the two products. -/
def net (mm1 : FVec F S100000x1433 .f32 → FVec F S1433x16 .f32 → FVec F S100000x16 .f32)
    (mm2 : FVec F S100000x16 .f32 → FVec F S16x7 .f32 → FVec F S100000x7 .f32)
    (x : FVec F S100000x1433 .f32) (row col : IVec S3200000 32) (W1 : FVec F S1433x16 .f32) (b1 : FVec F S16 .f32)
    (W2 : FVec F S16x7 .f32) (b2 : FVec F S7 .f32) : FVec F S100000x7 .f32 :=
  onEdges mm1 mm2 x W1 b1 W2 b2 (withLoops row) (withLoops col)

end Cert.Gcn

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.HostStages.lean ====
/-
  The program's three stretches of host operations, each read as a function of the buffers it starts from.

  Between the launches the program is a straight line of host operations. What such a line leaves in a buffer is the
  fold of its operations over the contents `V` it starts from; read at the buffer an operation wrote, the fold gives that
  operation's function of its operands' contents, and at a buffer no operation of the line writes it gives back `V`.

    * the first stretch (before the first product) builds the two edge lists with self-loops and the edge weights
      d(row e)^(-1/2) · d(col e)^(-1/2), from the two integer arguments alone;
    * the second (between the products) aggregates the first product along the edges, adds the bias and rectifies;
    * the third (after the second product) aggregates it, adds the bias and takes the log-softmax of each node's row.

  Each is stated over an arbitrary `V`, for any float instance: nothing is computed, the operations are only named.
-/
import proofs.«129228_j86328842650410_1_alg».proof.Proof.Gen.KernelIdeal.Launch
import proofs.«129228_j86328842650410_1_alg».proof.Proof.Gcn
import proofs.«129228_j86328842650410_1_alg».proof.Proof.LibHostStretches
import Idealize.ShloMosaic.Lib.StableHlo.Run

set_option maxRecDepth 16384

noncomputable section

namespace Cert.KernelIdeal.Stages

open Idealize.ShloMosaic Idealize.ShloMosaic.StableHlo Idealize.SL.Sem
open Cert.KernelIdeal Cert.KernelIdeal.Gen Cert.Gcn

variable {F : FTy → Type} [FloatOps F] (V : Valuation τ sig (Elt F))

/-- What the first stretch leaves, from `V`. -/
abbrev afterHead : Valuation τ sig (Elt F) := after hostOps0_2 (after hostOps0_1 (after hostOps0 V))
/-- What the second stretch leaves, from `V`. -/
abbrev afterMiddle : Valuation τ sig (Elt F) := after hostOps1_1 (after hostOps1 V)
/-- What the third stretch leaves, from `V`. -/
abbrev afterTail : Valuation τ sig (Elt F) := after hostOps2_1 (after hostOps2 V)

/-! ## The first stretch -/

/-- The receiving ends of the edges, self-loops appended. -/
theorem head_rows : afterHead V (Proc.devRef .tc main_v1) = withLoops (V (Proc.devRef .tc main_arg1)) := by
  dsimp only [afterHead, hostOps0, hostOps0_1, hostOps0_2]; after_results; rfl

/-- The sending ends of the edges, self-loops appended. -/
theorem head_cols : afterHead V (Proc.devRef .tc main_v2) = withLoops (V (Proc.devRef .tc main_arg2)) := by
  dsimp only [afterHead, hostOps0, hostOps0_1, hostOps0_2]; after_results; rfl

-- one pass over a line of twenty to forty operations on 3300000-entry shapes: more than the default budget
set_option maxHeartbeats 2000000 in
/-- The edge weights. -/
theorem head_weights : afterHead V (Proc.devRef .tc main_v25)
    = edgeWeight (F := F) (withLoops (V (Proc.devRef .tc main_arg1))) (withLoops (V (Proc.devRef .tc main_arg2))) := by
  dsimp only [afterHead, hostOps0, hostOps0_1, hostOps0_2]; after_results_simp; rfl

/-- The float arguments are not written. -/
theorem head_arg0 : afterHead V (Proc.devRef .tc main_arg0) = V (Proc.devRef .tc main_arg0) := by
  dsimp only [afterHead, hostOps0, hostOps0_1, hostOps0_2]; after_results
theorem head_arg3 : afterHead V (Proc.devRef .tc main_arg3) = V (Proc.devRef .tc main_arg3) := by
  dsimp only [afterHead, hostOps0, hostOps0_1, hostOps0_2]; after_results
theorem head_arg4 : afterHead V (Proc.devRef .tc main_arg4) = V (Proc.devRef .tc main_arg4) := by
  dsimp only [afterHead, hostOps0, hostOps0_1, hostOps0_2]; after_results
theorem head_arg5 : afterHead V (Proc.devRef .tc main_arg5) = V (Proc.devRef .tc main_arg5) := by
  dsimp only [afterHead, hostOps0, hostOps0_1, hostOps0_2]; after_results
theorem head_arg6 : afterHead V (Proc.devRef .tc main_arg6) = V (Proc.devRef .tc main_arg6) := by
  dsimp only [afterHead, hostOps0, hostOps0_1, hostOps0_2]; after_results

/-! ## The second stretch -/

-- one pass over a line of twenty to forty operations on 3300000-entry shapes: more than the default budget
set_option maxHeartbeats 2000000 in
/-- The rectified first layer, from the first product (the buffer `main_v26`), the edge lists, the weights and the bias. -/
theorem middle_hidden : afterMiddle V (Proc.devRef .tc main_v43)
    = relu16 (layer16 (V (Proc.devRef .tc main_v26)) (V (Proc.devRef .tc main_v1)) (V (Proc.devRef .tc main_v2))
        (V (Proc.devRef .tc main_v25)) (V (Proc.devRef .tc main_arg4))) := by
  dsimp only [afterMiddle, hostOps1, hostOps1_1]; after_results_simp; rfl

theorem middle_rows : afterMiddle V (Proc.devRef .tc main_v1) = V (Proc.devRef .tc main_v1) := by
  dsimp only [afterMiddle, hostOps1, hostOps1_1]; after_results
theorem middle_cols : afterMiddle V (Proc.devRef .tc main_v2) = V (Proc.devRef .tc main_v2) := by
  dsimp only [afterMiddle, hostOps1, hostOps1_1]; after_results
theorem middle_weights : afterMiddle V (Proc.devRef .tc main_v25) = V (Proc.devRef .tc main_v25) := by
  dsimp only [afterMiddle, hostOps1, hostOps1_1]; after_results
theorem middle_arg5 : afterMiddle V (Proc.devRef .tc main_arg5) = V (Proc.devRef .tc main_arg5) := by
  dsimp only [afterMiddle, hostOps1, hostOps1_1]; after_results
theorem middle_arg6 : afterMiddle V (Proc.devRef .tc main_arg6) = V (Proc.devRef .tc main_arg6) := by
  dsimp only [afterMiddle, hostOps1, hostOps1_1]; after_results

/-! ## The third stretch -/

-- one pass over a line of twenty to forty operations on 3300000-entry shapes: more than the default budget
set_option maxHeartbeats 2000000 in
/-- The result, from the second product (the buffer `main_v44`), the edge lists, the weights and the bias. -/
theorem tail_result : afterTail V (Proc.devRef .tc main_v61)
    = logSoftmax (layer7 (V (Proc.devRef .tc main_v44)) (V (Proc.devRef .tc main_v1)) (V (Proc.devRef .tc main_v2))
        (V (Proc.devRef .tc main_v25)) (V (Proc.devRef .tc main_arg6))) := by
  dsimp only [afterTail, hostOps2, hostOps2_1]; after_results_simp
  -- the log-softmax is an outlined function: its operations write and read back through typed references
  simp only [Cert.HostLine.ofBuf_toBuf]
  unfold logSoftmax centred
  rfl

end Cert.KernelIdeal.Stages

end
-- ==== Proof.KernelValue.lean ====
/-
  What the idealized kernel's result buffer holds at the end, as a function of the seven arguments.

  The boundary contents `W0` … `W9` are walked from the launch memory forward:
    * the first stretch builds the edge lists with self-loops and the edge weights and writes no argument;
    * the first launch leaves in its output the product x · W1 (rows of a product are products of rows, the blocks tile
      the output) and every other buffer as it was;
    * the second stretch leaves relu (layer16 (x · W1) …) and keeps the edge lists, the weights, W2 and b2;
    * the second launch leaves the product of that with W2;
    * the third stretch leaves the log-softmax of layer7 of it.
  Composed: the network of the specification, with both products the plain product `∑ k, a (r, k) · w (k, j)` on the
  extended reals.
-/
import proofs.«129228_j86328842650410_1_alg».proof.Proof.RowBlocks
import proofs.«129228_j86328842650410_1_alg».proof.Proof.HostStages

set_option maxRecDepth 16384

noncomputable section

namespace Cert.KernelIdeal.Whole

open Idealize.ShloMosaic Idealize.ShloMosaic.TcCoe Idealize.SL.Sem
open Cert.KernelIdeal Cert.KernelIdeal.Gen Cert.Gcn Cert.Dense

/-- The network with both products the plain product of two arrays on the extended reals. -/
abbrev plainNet (x : FVec Ideal S100000x1433 .f32) (row col : IVec S3200000 32) (W1 : FVec Ideal S1433x16 .f32)
    (b1 : FVec Ideal S16 .f32) (W2 : FVec Ideal S16x7 .f32) (b2 : FVec Ideal S7 .f32) : FVec Ideal S100000x7 .f32 :=
  net (F := Ideal) (rowsTimes (M := 100000) (K := 1433) (N := 16)) (rowsTimes (M := 100000) (K := 16) (N := 7))
    x row col W1 b1 W2 b2

variable (m : (ℓ : Loc nD τ sig) → Buf (Elt Ideal) ℓ) (ρ : Dev nD → PrngReg) (c : Dev nD)

/-- The receiving ends of the edges (self-loops appended), from the launch memory. -/
abbrev rowsOf : IVec S3300000 32 := withLoops (m ((c : Thread nD τ).loc main_arg1))
/-- The sending ends. -/
abbrev colsOf : IVec S3300000 32 := withLoops (m ((c : Thread nD τ).loc main_arg2))
/-- The edge weights. -/
abbrev weightsOf : FVec Ideal S3300000 .f32 := edgeWeight (F := Ideal) (rowsOf m c) (colsOf m c)
/-- The first product. -/
abbrev firstProduct : FVec Ideal S100000x16 .f32 :=
  rowsTimes (M := 100000) (K := 1433) (N := 16) (m ((c : Thread nD τ).loc main_arg0)) (m ((c : Thread nD τ).loc main_arg3))
/-- The rectified first layer. -/
abbrev hiddenOf : FVec Ideal S100000x16 .f32 :=
  relu16 (layer16 (firstProduct m c) (rowsOf m c) (colsOf m c) (weightsOf m c) (m ((c : Thread nD τ).loc main_arg4)))
/-- The second product. -/
abbrev secondProduct : FVec Ideal S100000x7 .f32 :=
  rowsTimes (M := 100000) (K := 16) (N := 7) (hiddenOf m c) (m ((c : Thread nD τ).loc main_arg5))

/-- The result buffer at the last boundary is the network of the arguments' launch contents. -/
theorem result_eq : W9 m ρ c (Proc.devRef .tc main_v61)
    = plainNet (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  -- at the first launch's entry
  have rows3 : W3 m ρ c (Proc.devRef .tc main_v1) = rowsOf m c := Stages.head_rows (W0 m ρ c)
  have cols3 : W3 m ρ c (Proc.devRef .tc main_v2) = colsOf m c := Stages.head_cols (W0 m ρ c)
  have wts3 : W3 m ρ c (Proc.devRef .tc main_v25) = weightsOf m c := Stages.head_weights (W0 m ρ c)
  have x3 : W3 m ρ c (Proc.devRef .tc main_arg0) = m ((c : Thread nD τ).loc main_arg0) := Stages.head_arg0 (W0 m ρ c)
  have w13 : W3 m ρ c (Proc.devRef .tc main_arg3) = m ((c : Thread nD τ).loc main_arg3) := Stages.head_arg3 (W0 m ρ c)
  have b13 : W3 m ρ c (Proc.devRef .tc main_arg4) = m ((c : Thread nD τ).loc main_arg4) := Stages.head_arg4 (W0 m ρ c)
  have w23 : W3 m ρ c (Proc.devRef .tc main_arg5) = m ((c : Thread nD τ).loc main_arg5) := Stages.head_arg5 (W0 m ρ c)
  have b23 : W3 m ρ c (Proc.devRef .tc main_arg6) = m ((c : Thread nD τ).loc main_arg6) := Stages.head_arg6 (W0 m ρ c)
  -- at the first launch's exit: its output is the product, the rest is untouched
  have prod4 : W4 m ρ c (Proc.devRef .tc main_v26) = firstProduct m c := by
    refine ((W4_arr m ρ c 2).trans (RowBlocks.product0 (V3 m ρ) c)).trans ?_
    show rowsTimes (M := 100000) (K := 1433) (N := 16) (W3 m ρ c (Proc.devRef .tc main_arg0)) (W3 m ρ c (Proc.devRef .tc main_arg3)) = _
    rw [x3, w13]
  have rows4 : W4 m ρ c (Proc.devRef .tc main_v1) = rowsOf m c := (W4_of_ne m ρ c main_v1 (by decide)).trans rows3
  have cols4 : W4 m ρ c (Proc.devRef .tc main_v2) = colsOf m c := (W4_of_ne m ρ c main_v2 (by decide)).trans cols3
  have wts4 : W4 m ρ c (Proc.devRef .tc main_v25) = weightsOf m c := (W4_of_ne m ρ c main_v25 (by decide)).trans wts3
  have b14 : W4 m ρ c (Proc.devRef .tc main_arg4) = m ((c : Thread nD τ).loc main_arg4) := (W4_of_ne m ρ c main_arg4 (by decide)).trans b13
  have w24 : W4 m ρ c (Proc.devRef .tc main_arg5) = m ((c : Thread nD τ).loc main_arg5) := (W4_of_ne m ρ c main_arg5 (by decide)).trans w23
  have b24 : W4 m ρ c (Proc.devRef .tc main_arg6) = m ((c : Thread nD τ).loc main_arg6) := (W4_of_ne m ρ c main_arg6 (by decide)).trans b23
  -- at the second launch's entry
  have hid6 : W6 m ρ c (Proc.devRef .tc main_v43) = hiddenOf m c := by
    refine (Stages.middle_hidden (W4 m ρ c)).trans ?_
    rw [prod4, rows4, cols4, wts4, b14]
  have rows6 : W6 m ρ c (Proc.devRef .tc main_v1) = rowsOf m c := (Stages.middle_rows (W4 m ρ c)).trans rows4
  have cols6 : W6 m ρ c (Proc.devRef .tc main_v2) = colsOf m c := (Stages.middle_cols (W4 m ρ c)).trans cols4
  have wts6 : W6 m ρ c (Proc.devRef .tc main_v25) = weightsOf m c := (Stages.middle_weights (W4 m ρ c)).trans wts4
  have w26 : W6 m ρ c (Proc.devRef .tc main_arg5) = m ((c : Thread nD τ).loc main_arg5) := (Stages.middle_arg5 (W4 m ρ c)).trans w24
  have b26 : W6 m ρ c (Proc.devRef .tc main_arg6) = m ((c : Thread nD τ).loc main_arg6) := (Stages.middle_arg6 (W4 m ρ c)).trans b24
  -- at the second launch's exit
  have prod7 : W7 m ρ c (Proc.devRef .tc main_v44) = secondProduct m c := by
    refine ((W7_arr m ρ c 2).trans (RowBlocks.product1 (V6 m ρ) c)).trans ?_
    show rowsTimes (M := 100000) (K := 16) (N := 7) (W6 m ρ c (Proc.devRef .tc main_v43)) (W6 m ρ c (Proc.devRef .tc main_arg5)) = _
    rw [hid6, w26]
  have rows7 : W7 m ρ c (Proc.devRef .tc main_v1) = rowsOf m c := (W7_of_ne m ρ c main_v1 (by decide)).trans rows6
  have cols7 : W7 m ρ c (Proc.devRef .tc main_v2) = colsOf m c := (W7_of_ne m ρ c main_v2 (by decide)).trans cols6
  have wts7 : W7 m ρ c (Proc.devRef .tc main_v25) = weightsOf m c := (W7_of_ne m ρ c main_v25 (by decide)).trans wts6
  have b27 : W7 m ρ c (Proc.devRef .tc main_arg6) = m ((c : Thread nD τ).loc main_arg6) := (W7_of_ne m ρ c main_arg6 (by decide)).trans b26
  -- the third stretch
  refine (Stages.tail_result (W7 m ρ c)).trans ?_
  rw [prod7, rows7, cols7, wts7, b27]
  rfl

end Cert.KernelIdeal.Whole

end
-- ==== Proof.ReferenceValue.lean ====
/-
  The reference program's result, as a function of the seven arguments.

  The reference is one straight line of 94 host operations (its three outlined functions' operations standing in their
  calls' places). Every weakly fair execution ends with each buffer at the fold of the operations over the launch contents.
  The fold is read in five stretches, each over an ARBITRARY starting valuation `V` so that terms stay small:

      operations  0 … 35   the edge lists with self-loops and the edge weights, from the two integer arguments;
      operation   36       the first product, `dot_general` of x and W1;
      operations 37 … 58   aggregate it along the edges, add the bias, rectify;
      operation   59       the second product, `dot_general` of that and W2;
      operations 60 … 93   aggregate, add the bias, log-softmax of each node's row.

  At a buffer a stretch writes, the fold gives the writing operation's function of its operands' contents; at a buffer it
  does not write it gives back `V`. Composed, the result buffer holds the network of the specification with both
  products the host's `dot_general` — for any float instance.
-/
import proofs.«129228_j86328842650410_1_alg».proof.Proof.ReferenceRun
import proofs.«129228_j86328842650410_1_alg».proof.Proof.Gcn
import proofs.«129228_j86328842650410_1_alg».proof.Proof.LibHostStretches

set_option maxRecDepth 16384

noncomputable section

namespace Cert.ReferenceIdeal.Reading

open Idealize.ShloMosaic Idealize.ShloMosaic.StableHlo Idealize.ShloMosaic.TcCoe Idealize.SL.Sem
open Cert.ReferenceIdeal Cert.ReferenceIdeal.ValueP Cert.Gcn Cert.HostLine

variable {F : FTy → Type} [FloatOps F] (V : Valuation τ sig (Elt F))

/-! ## The five stretches -/

abbrev headOps : List (HloOp τ sig (Elt F)) := (ops (F := F)).take 36
abbrev firstDot : List (HloOp τ sig (Elt F)) := ((ops (F := F)).drop 36).take 1
abbrev middleOps : List (HloOp τ sig (Elt F)) := ((ops (F := F)).drop 37).take 22
abbrev secondDot : List (HloOp τ sig (Elt F)) := ((ops (F := F)).drop 59).take 1
abbrev tailOps : List (HloOp τ sig (Elt F)) := (ops (F := F)).drop 60

/-- The line is its five stretches in order. -/
theorem ops_stretches : (ops : List (HloOp τ sig (Elt F))) = headOps ++ (firstDot ++ (middleOps ++ (secondDot ++ tailOps))) := rfl

/-- So what the line leaves is what the stretches leave one after the other. -/
theorem after_ops : after ops V
    = after (tailOps (F := F)) (after secondDot (after middleOps (after firstDot (after headOps V)))) := by
  rw [ops_stretches, after_append, after_append, after_append, after_append]

/-! ## The first stretch -/

/-- The receiving ends of the edges, self-loops appended. -/
theorem head_rows : after (headOps (F := F)) V (Proc.devRef .tc main_v1) = withLoops (V (Proc.devRef .tc main_arg1)) := by
  simp only [headOps, ops, List.take_succ_cons, List.take_zero, List.drop_succ_cons, List.drop_zero]; after_results_simp; rfl

/-- The sending ends of the edges, self-loops appended. -/
theorem head_cols : after (headOps (F := F)) V (Proc.devRef .tc main_v2) = withLoops (V (Proc.devRef .tc main_arg2)) := by
  simp only [headOps, ops, List.take_succ_cons, List.take_zero, List.drop_succ_cons, List.drop_zero]; after_results_simp; rfl

-- one pass over a line of twenty to forty operations on 3300000-entry shapes: more than the default budget
set_option maxHeartbeats 2000000 in
/-- The edge weights. -/
theorem head_weights : after (headOps (F := F)) V (Proc.devRef .tc main_v25)
    = edgeWeight (F := F) (withLoops (V (Proc.devRef .tc main_arg1))) (withLoops (V (Proc.devRef .tc main_arg2))) := by
  simp only [headOps, ops, List.take_succ_cons, List.take_zero, List.drop_succ_cons, List.drop_zero]; after_results_simp
  simp only [ofBuf_toBuf]
  rfl

/-- The float arguments are not written. -/
theorem head_arg0 : after (headOps (F := F)) V (Proc.devRef .tc main_arg0) = V (Proc.devRef .tc main_arg0) := by
  simp only [headOps, ops, List.take_succ_cons, List.take_zero, List.drop_succ_cons, List.drop_zero]; after_results_simp
theorem head_arg3 : after (headOps (F := F)) V (Proc.devRef .tc main_arg3) = V (Proc.devRef .tc main_arg3) := by
  simp only [headOps, ops, List.take_succ_cons, List.take_zero, List.drop_succ_cons, List.drop_zero]; after_results_simp
theorem head_arg4 : after (headOps (F := F)) V (Proc.devRef .tc main_arg4) = V (Proc.devRef .tc main_arg4) := by
  simp only [headOps, ops, List.take_succ_cons, List.take_zero, List.drop_succ_cons, List.drop_zero]; after_results_simp
theorem head_arg5 : after (headOps (F := F)) V (Proc.devRef .tc main_arg5) = V (Proc.devRef .tc main_arg5) := by
  simp only [headOps, ops, List.take_succ_cons, List.take_zero, List.drop_succ_cons, List.drop_zero]; after_results_simp
theorem head_arg6 : after (headOps (F := F)) V (Proc.devRef .tc main_arg6) = V (Proc.devRef .tc main_arg6) := by
  simp only [headOps, ops, List.take_succ_cons, List.take_zero, List.drop_succ_cons, List.drop_zero]; after_results_simp

/-! ## The first product -/

theorem firstDot_product : after (firstDot (F := F)) V (Proc.devRef .tc main_v26)
    = Host.dotGeneral dot_S100000x1433_S1433x16_S100000x16_1_0_0_1_n_n none (V (Proc.devRef .tc main_arg0)) (V (Proc.devRef .tc main_arg3)) := by
  simp only [firstDot, ops, List.take_succ_cons, List.take_zero, List.drop_succ_cons, List.drop_zero]; after_results_simp

theorem firstDot_rows : after (firstDot (F := F)) V (Proc.devRef .tc main_v1) = V (Proc.devRef .tc main_v1) := by
  simp only [firstDot, ops, List.take_succ_cons, List.take_zero, List.drop_succ_cons, List.drop_zero]; after_results_simp
theorem firstDot_cols : after (firstDot (F := F)) V (Proc.devRef .tc main_v2) = V (Proc.devRef .tc main_v2) := by
  simp only [firstDot, ops, List.take_succ_cons, List.take_zero, List.drop_succ_cons, List.drop_zero]; after_results_simp
theorem firstDot_weights : after (firstDot (F := F)) V (Proc.devRef .tc main_v25) = V (Proc.devRef .tc main_v25) := by
  simp only [firstDot, ops, List.take_succ_cons, List.take_zero, List.drop_succ_cons, List.drop_zero]; after_results_simp
theorem firstDot_arg4 : after (firstDot (F := F)) V (Proc.devRef .tc main_arg4) = V (Proc.devRef .tc main_arg4) := by
  simp only [firstDot, ops, List.take_succ_cons, List.take_zero, List.drop_succ_cons, List.drop_zero]; after_results_simp
theorem firstDot_arg5 : after (firstDot (F := F)) V (Proc.devRef .tc main_arg5) = V (Proc.devRef .tc main_arg5) := by
  simp only [firstDot, ops, List.take_succ_cons, List.take_zero, List.drop_succ_cons, List.drop_zero]; after_results_simp
theorem firstDot_arg6 : after (firstDot (F := F)) V (Proc.devRef .tc main_arg6) = V (Proc.devRef .tc main_arg6) := by
  simp only [firstDot, ops, List.take_succ_cons, List.take_zero, List.drop_succ_cons, List.drop_zero]; after_results_simp

/-! ## The second stretch -/

set_option maxHeartbeats 2000000 in
/-- The rectified first layer, from the first product, the edge lists, the weights and the bias. -/
theorem middle_hidden : after (middleOps (F := F)) V (Proc.devRef .tc main_v43)
    = relu16 (layer16 (V (Proc.devRef .tc main_v26)) (V (Proc.devRef .tc main_v1)) (V (Proc.devRef .tc main_v2))
        (V (Proc.devRef .tc main_v25)) (V (Proc.devRef .tc main_arg4))) := by
  simp only [middleOps, ops, List.take_succ_cons, List.take_zero, List.drop_succ_cons, List.drop_zero]; after_results_simp
  simp only [ofBuf_toBuf]
  rfl

theorem middle_rows : after (middleOps (F := F)) V (Proc.devRef .tc main_v1) = V (Proc.devRef .tc main_v1) := by
  simp only [middleOps, ops, List.take_succ_cons, List.take_zero, List.drop_succ_cons, List.drop_zero]; after_results_simp
theorem middle_cols : after (middleOps (F := F)) V (Proc.devRef .tc main_v2) = V (Proc.devRef .tc main_v2) := by
  simp only [middleOps, ops, List.take_succ_cons, List.take_zero, List.drop_succ_cons, List.drop_zero]; after_results_simp
theorem middle_weights : after (middleOps (F := F)) V (Proc.devRef .tc main_v25) = V (Proc.devRef .tc main_v25) := by
  simp only [middleOps, ops, List.take_succ_cons, List.take_zero, List.drop_succ_cons, List.drop_zero]; after_results_simp
theorem middle_arg5 : after (middleOps (F := F)) V (Proc.devRef .tc main_arg5) = V (Proc.devRef .tc main_arg5) := by
  simp only [middleOps, ops, List.take_succ_cons, List.take_zero, List.drop_succ_cons, List.drop_zero]; after_results_simp
theorem middle_arg6 : after (middleOps (F := F)) V (Proc.devRef .tc main_arg6) = V (Proc.devRef .tc main_arg6) := by
  simp only [middleOps, ops, List.take_succ_cons, List.take_zero, List.drop_succ_cons, List.drop_zero]; after_results_simp

/-! ## The second product -/

theorem secondDot_product : after (secondDot (F := F)) V (Proc.devRef .tc main_v44)
    = Host.dotGeneral dot_S100000x16_S16x7_S100000x7_1_0_0_1_n_n none (V (Proc.devRef .tc main_v43)) (V (Proc.devRef .tc main_arg5)) := by
  simp only [secondDot, ops, List.take_succ_cons, List.take_zero, List.drop_succ_cons, List.drop_zero]; after_results_simp

theorem secondDot_rows : after (secondDot (F := F)) V (Proc.devRef .tc main_v1) = V (Proc.devRef .tc main_v1) := by
  simp only [secondDot, ops, List.take_succ_cons, List.take_zero, List.drop_succ_cons, List.drop_zero]; after_results_simp
theorem secondDot_cols : after (secondDot (F := F)) V (Proc.devRef .tc main_v2) = V (Proc.devRef .tc main_v2) := by
  simp only [secondDot, ops, List.take_succ_cons, List.take_zero, List.drop_succ_cons, List.drop_zero]; after_results_simp
theorem secondDot_weights : after (secondDot (F := F)) V (Proc.devRef .tc main_v25) = V (Proc.devRef .tc main_v25) := by
  simp only [secondDot, ops, List.take_succ_cons, List.take_zero, List.drop_succ_cons, List.drop_zero]; after_results_simp
theorem secondDot_arg6 : after (secondDot (F := F)) V (Proc.devRef .tc main_arg6) = V (Proc.devRef .tc main_arg6) := by
  simp only [secondDot, ops, List.take_succ_cons, List.take_zero, List.drop_succ_cons, List.drop_zero]; after_results_simp

/-! ## The third stretch -/

set_option maxHeartbeats 2000000 in
/-- The result, from the second product, the edge lists, the weights and the bias. -/
theorem tail_result : after (tailOps (F := F)) V (Proc.devRef .tc main_v61)
    = logSoftmax (layer7 (V (Proc.devRef .tc main_v44)) (V (Proc.devRef .tc main_v1)) (V (Proc.devRef .tc main_v2))
        (V (Proc.devRef .tc main_v25)) (V (Proc.devRef .tc main_arg6))) := by
  simp only [tailOps, ops, List.take_succ_cons, List.take_zero, List.drop_succ_cons, List.drop_zero]; after_results_simp
  -- the log-softmax is an outlined function: its operations write and read back through typed references
  simp only [ofBuf_toBuf]
  unfold logSoftmax centred
  rfl

/-! ## Composed -/

/-- The network with both products the host's `dot_general`. -/
abbrev hostNet (x : FVec F S100000x1433 .f32) (row col : IVec S3200000 32) (W1 : FVec F S1433x16 .f32)
    (b1 : FVec F S16 .f32) (W2 : FVec F S16x7 .f32) (b2 : FVec F S7 .f32) : FVec F S100000x7 .f32 :=
  net (F := F) (fun l r => Host.dotGeneral dot_S100000x1433_S1433x16_S100000x16_1_0_0_1_n_n none l r)
    (fun l r => Host.dotGeneral dot_S100000x16_S16x7_S100000x7_1_0_0_1_n_n none l r) x row col W1 b1 W2 b2

-- the contents at the four inner boundaries
abbrev atHead : Valuation τ sig (Elt F) := after (headOps (F := F)) V
abbrev atFirst : Valuation τ sig (Elt F) := after (firstDot (F := F)) (atHead V)
abbrev atMiddle : Valuation τ sig (Elt F) := after (middleOps (F := F)) (atFirst V)
abbrev atSecond : Valuation τ sig (Elt F) := after (secondDot (F := F)) (atMiddle V)

-- the values carried along, from the contents the line starts from
abbrev rowsOf : IVec S3300000 32 := withLoops (V (Proc.devRef .tc main_arg1))
abbrev colsOf : IVec S3300000 32 := withLoops (V (Proc.devRef .tc main_arg2))
abbrev weightsOf : FVec F S3300000 .f32 := edgeWeight (F := F) (rowsOf V) (colsOf V)
abbrev firstProduct : FVec F S100000x16 .f32 :=
  Host.dotGeneral dot_S100000x1433_S1433x16_S100000x16_1_0_0_1_n_n none (V (Proc.devRef .tc main_arg0)) (V (Proc.devRef .tc main_arg3))
abbrev hiddenOf : FVec F S100000x16 .f32 :=
  relu16 (layer16 (firstProduct V) (rowsOf V) (colsOf V) (weightsOf V) (V (Proc.devRef .tc main_arg4)))
abbrev secondProduct : FVec F S100000x7 .f32 :=
  Host.dotGeneral dot_S100000x16_S16x7_S100000x7_1_0_0_1_n_n none (hiddenOf V) (V (Proc.devRef .tc main_arg5))

/-- What the whole line leaves in the result buffer: the network of the contents it starts from at the arguments. -/
theorem result_eq : after ops V (Proc.devRef .tc main_v61)
    = hostNet (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) := by
  -- after the first stretch
  have rows1 : atHead V (Proc.devRef .tc main_v1) = rowsOf V := head_rows V
  have cols1 : atHead V (Proc.devRef .tc main_v2) = colsOf V := head_cols V
  have wts1 : atHead V (Proc.devRef .tc main_v25) = weightsOf V := head_weights V
  have x1 : atHead V (Proc.devRef .tc main_arg0) = V (Proc.devRef .tc main_arg0) := head_arg0 V
  have w11 : atHead V (Proc.devRef .tc main_arg3) = V (Proc.devRef .tc main_arg3) := head_arg3 V
  have b11 : atHead V (Proc.devRef .tc main_arg4) = V (Proc.devRef .tc main_arg4) := head_arg4 V
  have w21 : atHead V (Proc.devRef .tc main_arg5) = V (Proc.devRef .tc main_arg5) := head_arg5 V
  have b21 : atHead V (Proc.devRef .tc main_arg6) = V (Proc.devRef .tc main_arg6) := head_arg6 V
  -- after the first product
  have prod2 : atFirst V (Proc.devRef .tc main_v26) = firstProduct V := by
    refine (firstDot_product (atHead V)).trans ?_
    rw [x1, w11]
  have rows2 : atFirst V (Proc.devRef .tc main_v1) = rowsOf V := (firstDot_rows (atHead V)).trans rows1
  have cols2 : atFirst V (Proc.devRef .tc main_v2) = colsOf V := (firstDot_cols (atHead V)).trans cols1
  have wts2 : atFirst V (Proc.devRef .tc main_v25) = weightsOf V := (firstDot_weights (atHead V)).trans wts1
  have b12 : atFirst V (Proc.devRef .tc main_arg4) = V (Proc.devRef .tc main_arg4) := (firstDot_arg4 (atHead V)).trans b11
  have w22 : atFirst V (Proc.devRef .tc main_arg5) = V (Proc.devRef .tc main_arg5) := (firstDot_arg5 (atHead V)).trans w21
  have b22 : atFirst V (Proc.devRef .tc main_arg6) = V (Proc.devRef .tc main_arg6) := (firstDot_arg6 (atHead V)).trans b21
  -- after the second stretch
  have hid3 : atMiddle V (Proc.devRef .tc main_v43) = hiddenOf V := by
    refine (middle_hidden (atFirst V)).trans ?_
    rw [prod2, rows2, cols2, wts2, b12]
  have rows3 : atMiddle V (Proc.devRef .tc main_v1) = rowsOf V := (middle_rows (atFirst V)).trans rows2
  have cols3 : atMiddle V (Proc.devRef .tc main_v2) = colsOf V := (middle_cols (atFirst V)).trans cols2
  have wts3 : atMiddle V (Proc.devRef .tc main_v25) = weightsOf V := (middle_weights (atFirst V)).trans wts2
  have w23 : atMiddle V (Proc.devRef .tc main_arg5) = V (Proc.devRef .tc main_arg5) := (middle_arg5 (atFirst V)).trans w22
  have b23 : atMiddle V (Proc.devRef .tc main_arg6) = V (Proc.devRef .tc main_arg6) := (middle_arg6 (atFirst V)).trans b22
  -- after the second product
  have prod4 : atSecond V (Proc.devRef .tc main_v44) = secondProduct V := by
    refine (secondDot_product (atMiddle V)).trans ?_
    rw [hid3, w23]
  have rows4 : atSecond V (Proc.devRef .tc main_v1) = rowsOf V := (secondDot_rows (atMiddle V)).trans rows3
  have cols4 : atSecond V (Proc.devRef .tc main_v2) = colsOf V := (secondDot_cols (atMiddle V)).trans cols3
  have wts4 : atSecond V (Proc.devRef .tc main_v25) = weightsOf V := (secondDot_weights (atMiddle V)).trans wts3
  have b24 : atSecond V (Proc.devRef .tc main_arg6) = V (Proc.devRef .tc main_arg6) := (secondDot_arg6 (atMiddle V)).trans b23
  -- the third stretch
  rw [after_ops]
  refine (tail_result (atSecond V)).trans ?_
  rw [prod4, rows4, cols4, wts4, b24]
  rfl

/-! ## The run -/

set_option maxRecDepth 8192 in
set_option maxHeartbeats 4000000 in
/-- On every device, for any float values, from any memory with zero counters: every weakly fair execution of the
    reference terminates with its result buffer at the network of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v61).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Reading

end
-- ==== Proof.Bridge.lean ====
/-
  The two programs compute one function.

  The idealized kernel's result is the network with both dense products the plain product ∑ k, a (r, k) · w (k, j)
  (each launch computes it a block of rows at a time: rows of a product are products of rows). The reference's result is
  the network with both products the host's `dot_general`. On the extended reals a `dot_general` that contracts the
  left array's columns against the right array's rows IS that plain product — the same sum of the same products, so no
  finiteness is needed — and the rest of the network is literally the same operations on both sides.
-/
import proofs.«129228_j86328842650410_1_alg».proof.Proof.KernelValue
import proofs.«129228_j86328842650410_1_alg».proof.Proof.ReferenceValue
import proofs.«129228_j86328842650410_1_alg».proof.Proof.LibRowsCols

noncomputable section

namespace Cert.Bridge

open Idealize.ShloMosaic Cert.Dense

/-- The reference's first contraction is "rows times columns": left index (row, k), right index (k, column). -/
theorem rowsCols1 : RowsCols (R := 100000) (K := 1433) (N := 16)
    Cert.ReferenceIdeal.dot_S100000x1433_S1433x16_S100000x16_1_0_0_1_n_n :=
  ⟨rfl, rfl, fun _ _ => rfl, fun _ _ => rfl, fun _ _ => rfl, fun _ _ => rfl⟩

/-- So is its second. -/
theorem rowsCols2 : RowsCols (R := 100000) (K := 16) (N := 7)
    Cert.ReferenceIdeal.dot_S100000x16_S16x7_S100000x7_1_0_0_1_n_n :=
  ⟨rfl, rfl, fun _ _ => rfl, fun _ _ => rfl, fun _ _ => rfl, fun _ _ => rfl⟩

/-- On the extended reals the reference's network is the kernel's: the two `dot_general`s are the two plain products. -/
theorem hostNet_eq_plainNet (x : FVec Ideal Cert.KernelIdeal.S100000x1433 .f32) (row col : IVec Cert.KernelIdeal.S3200000 32)
    (W1 : FVec Ideal Cert.KernelIdeal.S1433x16 .f32) (b1 : FVec Ideal Cert.KernelIdeal.S16 .f32)
    (W2 : FVec Ideal Cert.KernelIdeal.S16x7 .f32) (b2 : FVec Ideal Cert.KernelIdeal.S7 .f32) :
    Cert.ReferenceIdeal.Reading.hostNet (F := Ideal) x row col W1 b1 W2 b2
      = Cert.KernelIdeal.Whole.plainNet x row col W1 b1 W2 b2 := by
  have e1 : (fun (l : FVec Ideal Cert.KernelIdeal.S100000x1433 .f32) (r : FVec Ideal Cert.KernelIdeal.S1433x16 .f32) =>
      Host.dotGeneral Cert.ReferenceIdeal.dot_S100000x1433_S1433x16_S100000x16_1_0_0_1_n_n none l r)
      = rowsTimes (M := 100000) (K := 1433) (N := 16) :=
    funext fun l => funext fun r => dotGeneral_eq rowsCols1 none l r
  have e2 : (fun (l : FVec Ideal Cert.KernelIdeal.S100000x16 .f32) (r : FVec Ideal Cert.KernelIdeal.S16x7 .f32) =>
      Host.dotGeneral Cert.ReferenceIdeal.dot_S100000x16_S16x7_S100000x7_1_0_0_1_n_n none l r)
      = rowsTimes (M := 100000) (K := 16) (N := 7) :=
    funext fun l => funext fun r => dotGeneral_eq rowsCols2 none l r
  show Cert.Gcn.net (F := Ideal) _ _ x row col W1 b1 W2 b2 = Cert.Gcn.net (F := Ideal) _ _ x row col W1 b1 W2 b2
  exact congrArg₂ (fun f g => Cert.Gcn.net (F := Ideal) f g x row col W1 b1 W2 b2) e1 e2

end Cert.Bridge

end
-- ==== Proof.lean ====
/-
  The certificate of a two-layer graph convolution whose two dense products run as row-blocked TPU kernels, against the
  same network written with whole-array products.

  Both programs compute  logsoftmax (layer ((relu (layer (x · W1) b1)) · W2) b2)  over a graph given by two edge
  lists (Proof/Gcn.lean states the function, the two products as parameters). The kernel computes each product
  "·" a block of rows at a time in a pipelined launch; the reference computes it whole. At the ideal instance (floats are
  extended reals, every operation exact, a change of float format the identity):

    * each launch's output array, after its last grid point, is the plain product of the two arrays it was entered with —
      rows of a product are products of rows, and the row blocks tile the output (Proof/RowBlocks.lean);
    * the host operations around the launches are the same straight lines in both programs, read stretch by stretch
      (Proof/HostStages.lean for the kernel's, Proof/ReferenceValue.lean for the reference's);
    * so the kernel's result is the network with plain products (Proof/KernelValue.lean), the reference's the network with
      `dot_general`s, and a `dot_general` contracting columns against rows IS the plain product on the extended reals
      (Proof/Bridge.lean). No step needs the inputs to be finite: both sides are the same sums of the same products.

  The three frame claims are the generated frame certificates of the two kernel programs and the reference's run with its
  result forgotten; the idealization rewrote no operation, so `preserves` states nothing.
-/
import proofs.«129228_j86328842650410_1_alg».proof.Defs
import proofs.«129228_j86328842650410_1_alg».proof.Proof.Gen.Kernel
import proofs.«129228_j86328842650410_1_alg».proof.Proof.Gen.Kernel.Skeleton
import proofs.«129228_j86328842650410_1_alg».proof.Proof.Gen.Kernel.Launch
import proofs.«129228_j86328842650410_1_alg».proof.Proof.Gen.Kernel.Points
import proofs.«129228_j86328842650410_1_alg».proof.Proof.Gen.Kernel.Frame
import proofs.«129228_j86328842650410_1_alg».proof.Proof.Gen.KernelIdeal
import proofs.«129228_j86328842650410_1_alg».proof.Proof.Gen.KernelIdeal.Skeleton
import proofs.«129228_j86328842650410_1_alg».proof.Proof.Gen.KernelIdeal.Launch
import proofs.«129228_j86328842650410_1_alg».proof.Proof.Gen.KernelIdeal.Points
import proofs.«129228_j86328842650410_1_alg».proof.Proof.Gen.KernelIdeal.Frame
import proofs.«129228_j86328842650410_1_alg».proof.Proof.Gen.ReferenceIdeal
import proofs.«129228_j86328842650410_1_alg».proof.Proof.Gen.Pre_finite_inputs
import proofs.«129228_j86328842650410_1_alg».proof.Proof.KernelRun
import proofs.«129228_j86328842650410_1_alg».proof.Proof.KernelValue
import proofs.«129228_j86328842650410_1_alg».proof.Proof.ReferenceValue
import proofs.«129228_j86328842650410_1_alg».proof.Proof.Bridge
import Idealize.ShloMosaic.Adequacy
import Idealize.ShloMosaic.Init

noncomputable section

namespace Cert.Proof

open Idealize.ShloMosaic Idealize.SL.Sem

/-- The word-level kernel runs, nothing faulting, its arguments unchanged: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Reading.run (F := Ideal) m ρ)

/-- The idealization rewrote no operation. -/
theorem preserves : Cert.preserves_Kernel_KernelIdeal := trivial

/-- From memories agreeing on the seven arguments both idealized programs end with the same result array: the network of
    the arguments with plain products. -/
theorem algebraic : Cert.algebraic_KernelIdeal_ReferenceIdeal := by
  intro m ρ m' ρ' _ hagree
  refine ⟨fun c => Cert.KernelIdeal.Whole.plainNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    (θ_run Cert.KernelIdeal.defs _ _).mono
      (fun _ h c => ⟨(h c).1.trans (Cert.KernelIdeal.Whole.result_eq m ρ c), (h c).2⟩)
      (Cert.KernelIdeal.Whole.run_result (F := Ideal) m ρ), ?_⟩
  refine (θ_run Cert.ReferenceIdeal.defs _ _).mono (fun _ h c => ⟨(h c).1.trans ?_, (h c).2⟩)
    (Cert.ReferenceIdeal.Reading.run (F := Ideal) m' ρ')
  obtain ⟨a0, a1, a2, a3, a4, a5, a6⟩ := hagree c
  rw [a0, a1, a2, a3, a4, a5, a6]
  exact Cert.Bridge.hostNet_eq_plainNet _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
